-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S11008x4096 : Shape := ⟨2, ![11008, 4096]⟩
abbrev S32x11008x2 : Shape := ⟨3, ![32, 11008, 2]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S32x11008x2 : S_.BroadcastsInDim S32x11008x2 (![] : Fin 0 → Fin S32x11008x2.rank)
  reducesTo_S32x11008x2_S_d0_1_2 : S32x11008x2.ReducesTo [0, 1, 2] S_

variable [Facts]

def fn {F : FTy → Type} [FloatOps F] (main_arg0 : FVec F S32x4096 .f32) (main_arg1 : IVec S11008x4096 32) (main_arg2 : FVec F S32x11008x2 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x11008x2 .f32 := Host.absf main_arg2
  let main_cst_0 : FVec F S_ .f32 := constant S_ .f32 0x7F800000#32
  let main_v5 : FVec F S32x11008x2 .f32 := broadcastInDim S32x11008x2 ![] bcast_S_S32x11008x2 main_cst_0
  let main_v6 : IVec S32x11008x2 1 := cmpf .olt main_v4 main_v5
  let main_c_1 : IVec S_ 1 := constantI S_ 1 1#1
  let main_v7 : IVec S_ 1 := (fun x v => Host.reduce IntOp.andi x v reducesTo_S32x11008x2_S_d0_1_2 h_S_) main_v6 main_c_1
  let main_v8 : IVec S_ 1 := andi main_v3 main_v7
  main_v8
-- ==== Kernel.lean ====
abbrev S32x4096 : Shape := ⟨2, ![32, 4096]⟩
abbrev S11008x4096 : Shape := ⟨2, ![11008, 4096]⟩
abbrev S32x11008x2 : Shape := ⟨3, ![32, 11008, 2]⟩
abbrev S32x11008x1 : Shape := ⟨3, ![32, 11008, 1]⟩
abbrev S32x11008 : Shape := ⟨2, ![32, 11008]⟩
abbrev S32x32x128 : Shape := ⟨3, ![32, 32, 128]⟩
abbrev S_ : Shape := ⟨0, ![]⟩
abbrev S32x32 : Shape := ⟨2, ![32, 32]⟩
abbrev S128x4096 : Shape := ⟨2, ![128, 4096]⟩
abbrev S32x128 : Shape := ⟨2, ![32, 128]⟩
abbrev S128x128 : Shape := ⟨2, ![128, 128]⟩
abbrev S1x128 : Shape := ⟨2, ![1, 128]⟩
abbrev S128 : Shape := ⟨1, ![128]⟩
abbrev S32x1 : Shape := ⟨2, ![32, 1]⟩

abbrev nBuf : Space → Nat
  | .hbm => 11
  | .vmem => 10
  | .smem => 0
  | _ => 0

abbrev bufTy : (tb : Table) → Fin (tcTables nBuf tb) → BufTy
  | .hbm, ⟨0, _⟩ => ⟨S32x4096, .f32⟩
  | .hbm, ⟨1, _⟩ => ⟨S11008x4096, .i32⟩
  | .hbm, ⟨2, _⟩ => ⟨S32x11008x2, .f32⟩
  | .hbm, ⟨3, _⟩ => ⟨S32x11008x1, .f32⟩
  | .hbm, ⟨4, _⟩ => ⟨S32x11008, .f32⟩
  | .hbm, ⟨5, _⟩ => ⟨S32x11008x1, .f32⟩
  | .hbm, ⟨6, _⟩ => ⟨S32x11008, .f32⟩
  | .hbm, ⟨7, _⟩ => ⟨S32x32x128, .f32⟩
  | .hbm, ⟨8, _⟩ => ⟨S_, .f32⟩
  | .hbm, ⟨9, _⟩ => ⟨S32x32, .f32⟩
  | .hbm, ⟨10, _⟩ => ⟨S32x11008, .f32⟩
  | .local _ .vmem, ⟨0, _⟩ => ⟨S32x4096, .f32⟩
  | .local _ .vmem, ⟨1, _⟩ => ⟨S32x32, .f32⟩
  | .local _ .vmem, ⟨2, _⟩ => ⟨S128x4096, .i32⟩
  | .local _ .vmem, ⟨3, _⟩ => ⟨S128x4096, .i32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S32x11008x2_S32x11008x1_0_0_0 : S32x11008x2.Slices ![0, 0, 0] S32x11008x1
  shapeCasts_S32x11008x1_S32x11008 : S32x11008x1.ShapeCasts S32x11008
  slices_S32x11008x2_S32x11008x1_0_0_1 : S32x11008x2.Slices ![0, 0, 1] S32x11008x1
  shapeCasts_S32x4096_S32x32x128 : S32x4096.ShapeCasts S32x32x128
  reducesTo_S32x32x128_S32x32_d2 : S32x32x128.ReducesTo [2] S32x32
  h_S_ : 0 < S_.numel
  inb_S32x4096_S32x128_0_0 : ∀ a, (![0, 0] : Fin 2 → Nat) a + S32x128.size a ≤ S32x4096.size a
  h_S32x128 : 0 < S32x128.numel
  bitsLt_bf16_f32 : FTy.bits .bf16 < FTy.bits .f32
  inb_S128x4096_S128x128_0_0 : ∀ a, (![0, 0] : Fin 2 → Nat) a + S128x128.size a ≤ S128x4096.size a
  h_S128x128 : 0 < S128x128.numel
  inb_S32x128_S1x128_0_0 : ∀ a, (![0, 0] : Fin 2 → Nat) a + S1x128.size a ≤ S32x128.size a
  h_S1x128 : 0 < S1x128.numel
  shapeCasts_S1x128_S128 : S1x128.ShapeCasts S128
  shapeCasts_S128_S1x128 : S128.ShapeCasts S1x128
  inb_S32x32_S32x1_0_0 : ∀ a, (![0, 0] : Fin 2 → Nat) a + S32x1.size a ≤ S32x32.size a
  h_S32x1 : 0 < S32x1.numel
  shapeCasts_S32x1_S32x1 : S32x1.ShapeCasts S32x1
  broadcasts_S1x128_S32x128 : S1x128.Broadcasts S32x128
  broadcasts_S32x1_S32x128 : S32x1.Broadcasts S32x128
  inb_S32x4096_S32x128_0_128 : ∀ a, (![0, 128] : Fin 2 → Nat) a + S32x128.size a ≤ S32x4096.size a
  inb_S128x4096_S128x128_0_128 : ∀ a, (![0, 128] : Fin 2 → Nat) a + S128x128.size a ≤ S128x4096.size a
  inb_S32x128_S1x128_1_0 : ∀ a, (![1, 0] : Fin 2 → Nat) a + S1x128.size a ≤ S32x128.size a
  inb_S32x32_S32x1_0_1 : ∀ a, (![0, 1] : Fin 2 → Nat) a + S32x1.size a ≤ S32x32.size a
  inb_S32x4096_S32x128_0_256 : ∀ a, (![0, 256] : Fin 2 → Nat) a + S32x128.size a ≤ S32x4096.size a
  inb_S128x4096_S128x128_0_256 : ∀ a, (![0, 256] : Fin 2 → Nat) a + S128x128.size a ≤ S128x4096.size a
  inb_S32x128_S1x128_2_0 : ∀ a, (![2, 0] : Fin 2 → Nat) a + S1x128.size a ≤ S32x128.size a
  inb_S32x32_S32x1_0_2 : ∀ a, (![0, 2] : Fin 2 → Nat) a + S32x1.size a ≤ S32x32.size a
  inb_S32x4096_S32x128_0_384 : ∀ a, (![0, 384] : Fin 2 → Nat) a + S32x128.size a ≤ S32x4096.size a
  inb_S128x4096_S128x128_0_384 : ∀ a, (![0, 384] : Fin 2 → Nat) a + S128x128.size a ≤ S128x4096.size a
  inb_S32x128_S1x128_3_0 : ∀ a, (![3, 0] : Fin 2 → Nat) a + S1x128.size a ≤ S32x128.size a
  inb_S32x32_S32x1_0_3 : ∀ a, (![0, 3] : Fin 2 → Nat) a + S32x1.size a ≤ S32x32.size a
  inb_S32x4096_S32x128_0_512 : ∀ a, (![0, 512] : Fin 2 → Nat) a + S32x128.size a ≤ S32x4096.size a
  inb_S128x4096_S128x128_0_512 : ∀ a, (![0, 512] : Fin 2 → Nat) a + S128x128.size a ≤ S128x4096.size a
  inb_S32x128_S1x128_4_0 : ∀ a, (![4, 0] : Fin 2 → Nat) a + S1x128.size a ≤ S32x128.size a
  inb_S32x32_S32x1_0_4 : ∀ a, (![0, 4] : Fin 2 → Nat) a + S32x1.size a ≤ S32x32.size a
  inb_S32x4096_S32x128_0_640 : ∀ a, (![0, 640] : Fin 2 → Nat) a + S32x128.size a ≤ S32x4096.size a
  inb_S128x4096_S128x128_0_640 : ∀ a, (![0, 640] : Fin 2 → Nat) a + S128x128.size a ≤ S128x4096.size a
  inb_S32x128_S1x128_5_0 : ∀ a, (![5, 0] : Fin 2 → Nat) a + S1x128.size a ≤ S32x128.size a
  inb_S32x32_S32x1_0_5 : ∀ a, (![0, 5] : Fin 2 → Nat) a + S32x1.size a ≤ S32x32.size a
  inb_S32x4096_S32x128_0_768 : ∀ a, (![0, 768] : Fin 2 → Nat) a + S32x128.size a ≤ S32x4096.size a
  inb_S128x4096_S128x128_0_768 : ∀ a, (![0, 768] : Fin 2 → Nat) a + S128x128.size a ≤ S128x4096.size a
  inb_S32x128_S1x128_6_0 : ∀ a, (![6, 0] : Fin 2 → Nat) a + S1x128.size a ≤ S32x128.size a
  inb_S32x32_S32x1_0_6 : ∀ a, (![0, 6] : Fin 2 → Nat) a + S32x1.size a ≤ S32x32.size a
  inb_S32x4096_S32x128_0_896 : ∀ a, (![0, 896] : Fin 2 → Nat) a + S32x128.size a ≤ S32x4096.size a
  inb_S128x4096_S128x128_0_896 : ∀ a, (![0, 896] : Fin 2 → Nat) a + S128x128.size a ≤ S128x4096.size a
  inb_S32x128_S1x128_7_0 : ∀ a, (![7, 0] : Fin 2 → Nat) a + S1x128.size a ≤ S32x128.size a
  inb_S32x32_S32x1_0_7 : ∀ a, (![0, 7] : Fin 2 → Nat) a + S32x1.size a ≤ S32x32.size a
  inb_S32x4096_S32x128_0_1024 : ∀ a, (![0, 1024] : Fin 2 → Nat) a + S32x128.size a ≤ S32x4096.size a
  inb_S128x4096_S128x128_0_1024 : ∀ a, (![0, 1024] : Fin 2 → Nat) a + S128x128.size a ≤ S128x4096.size a
  inb_S32x128_S1x128_8_0 : ∀ a, (![8, 0] : Fin 2 → Nat) a + S1x128.size a ≤ S32x128.size a
  inb_S32x32_S32x1_0_8 : ∀ a, (![0, 8] : Fin 2 → Nat) a + S32x1.size a ≤ S32x32.size a
  inb_S32x4096_S32x128_0_1152 : ∀ a, (![0, 1152] : Fin 2 → Nat) a + S32x128.size a ≤ S32x4096.size a
  inb_S128x4096_S128x128_0_1152 : ∀ a, (![0, 1152] : Fin 2 → Nat) a + S128x128.size a ≤ S128x4096.size a
  inb_S32x128_S1x128_9_0 : ∀ a, (![9, 0] : Fin 2 → Nat) a + S1x128.size a ≤ S32x128.size a
  inb_S32x32_S32x1_0_9 : ∀ a, (![0, 9] : Fin 2 → Nat) a + S32x1.size a ≤ S32x32.size a
  inb_S32x4096_S32x128_0_1280 : ∀ a, (![0, 1280] : Fin 2 → Nat) a + S32x128.size a ≤ S32x4096.size a
  inb_S128x4096_S128x128_0_1280 : ∀ a, (![0, 1280] : Fin 2 → Nat) a + S128x128.size a ≤ S128x4096.size a
  inb_S32x128_S1x128_10_0 : ∀ a, (![10, 0] : Fin 2 → Nat) a + S1x128.size a ≤ S32x128.size a
  inb_S32x32_S32x1_0_10 : ∀ a, (![0, 10] : Fin 2 → Nat) a + S32x1.size a ≤ S32x32.size a
  inb_S32x4096_S32x128_0_1408 : ∀ a, (![0, 1408] : Fin 2 → Nat) a + S32x128.size a ≤ S32x4096.size a
  inb_S128x4096_S128x128_0_1408 : ∀ a, (![0, 1408] : Fin 2 → Nat) a + S128x128.size a ≤ S128x4096.size a
  inb_S32x128_S1x128_11_0 : ∀ a, (![11, 0] : Fin 2 → Nat) a + S1x128.size a ≤ S32x128.size a
  inb_S32x32_S32x1_0_11 : ∀ a, (![0, 11] : Fin 2 → Nat) a + S32x1.size a ≤ S32x32.size a
  inb_S32x4096_S32x128_0_1536 : ∀ a, (![0, 1536] : Fin 2 → Nat) a + S32x128.size a ≤ S32x4096.size a
  inb_S128x4096_S128x128_0_1536 : ∀ a, (![0, 1536] : Fin 2 → Nat) a + S128x128.size a ≤ S128x4096.size a
  inb_S32x128_S1x128_12_0 : ∀ a, (![12, 0] : Fin 2 → Nat) a + S1x128.size a ≤ S32x128.size a
  inb_S32x32_S32x1_0_12 : ∀ a, (![0, 12] : Fin 2 → Nat) a + S32x1.size a ≤ S32x32.size a
  inb_S32x4096_S32x128_0_1664 : ∀ a, (![0, 1664] : Fin 2 → Nat) a + S32x128.size a ≤ S32x4096.size a
  inb_S128x4096_S128x128_0_1664 : ∀ a, (![0, 1664] : Fin 2 → Nat) a + S128x128.size a ≤ S128x4096.size a
  inb_S32x128_S1x128_13_0 : ∀ a, (![13, 0] : Fin 2 → Nat) a + S1x128.size a ≤ S32x128.size a
  inb_S32x32_S32x1_0_13 : ∀ a, (![0, 13] : Fin 2 → Nat) a + S32x1.size a ≤ S32x32.size a
  inb_S32x4096_S32x128_0_1792 : ∀ a, (![0, 1792] : Fin 2 → Nat) a + S32x128.size a ≤ S32x4096.size a
  inb_S128x4096_S128x128_0_1792 : ∀ a, (![0, 1792] : Fin 2 → Nat) a + S128x128.size a ≤ S128x4096.size a
  inb_S32x128_S1x128_14_0 : ∀ a, (![14, 0] : Fin 2 → Nat) a + S1x128.size a ≤ S32x128.size a
  inb_S32x32_S32x1_0_14 : ∀ a, (![0, 14] : Fin 2 → Nat) a + S32x1.size a ≤ S32x32.size a
  inb_S32x4096_S32x128_0_1920 : ∀ a, (![0, 1920] : Fin 2 → Nat) a + S32x128.size a ≤ S32x4096.size a
  inb_S128x4096_S128x128_0_1920 : ∀ a, (![0, 1920] : Fin 2 → Nat) a + S128x128.size a ≤ S128x4096.size a
  inb_S32x128_S1x128_15_0 : ∀ a, (![15, 0] : Fin 2 → Nat) a + S1x128.size a ≤ S32x128.size a
  inb_S32x32_S32x1_0_15 : ∀ a, (![0, 15] : Fin 2 → Nat) a + S32x1.size a ≤ S32x32.size a
  inb_S32x4096_S32x128_0_2048 : ∀ a, (![0, 2048] : Fin 2 → Nat) a + S32x128.size a ≤ S32x4096.size a
  inb_S128x4096_S128x128_0_2048 : ∀ a, (![0, 2048] : Fin 2 → Nat) a + S128x128.size a ≤ S128x4096.size a
  inb_S32x128_S1x128_16_0 : ∀ a, (![16, 0] : Fin 2 → Nat) a + S1x128.size a ≤ S32x128.size a
  inb_S32x32_S32x1_0_16 : ∀ a, (![0, 16] : Fin 2 → Nat) a + S32x1.size a ≤ S32x32.size a
  inb_S32x4096_S32x128_0_2176 : ∀ a, (![0, 2176] : Fin 2 → Nat) a + S32x128.size a ≤ S32x4096.size a
  inb_S128x4096_S128x128_0_2176 : ∀ a, (![0, 2176] : Fin 2 → Nat) a + S128x128.size a ≤ S128x4096.size a
  inb_S32x128_S1x128_17_0 : ∀ a, (![17, 0] : Fin 2 → Nat) a + S1x128.size a ≤ S32x128.size a
  inb_S32x32_S32x1_0_17 : ∀ a, (![0, 17] : Fin 2 → Nat) a + S32x1.size a ≤ S32x32.size a
  inb_S32x4096_S32x128_0_2304 : ∀ a, (![0, 2304] : Fin 2 → Nat) a + S32x128.size a ≤ S32x4096.size a
  inb_S128x4096_S128x128_0_2304 : ∀ a, (![0, 2304] : Fin 2 → Nat) a + S128x128.size a ≤ S128x4096.size a
  inb_S32x128_S1x128_18_0 : ∀ a, (![18, 0] : Fin 2 → Nat) a + S1x128.size a ≤ S32x128.size a
  inb_S32x32_S32x1_0_18 : ∀ a, (![0, 18] : Fin 2 → Nat) a + S32x1.size a ≤ S32x32.size a
  inb_S32x4096_S32x128_0_2432 : ∀ a, (![0, 2432] : Fin 2 → Nat) a + S32x128.size a ≤ S32x4096.size a
  inb_S128x4096_S128x128_0_2432 : ∀ a, (![0, 2432] : Fin 2 → Nat) a + S128x128.size a ≤ S128x4096.size a
  inb_S32x128_S1x128_19_0 : ∀ a, (![19, 0] : Fin 2 → Nat) a + S1x128.size a ≤ S32x128.size a
  inb_S32x32_S32x1_0_19 : ∀ a, (![0, 19] : Fin 2 → Nat) a + S32x1.size a ≤ S32x32.size a
  inb_S32x4096_S32x128_0_2560 : ∀ a, (![0, 2560] : Fin 2 → Nat) a + S32x128.size a ≤ S32x4096.size a
  inb_S128x4096_S128x128_0_2560 : ∀ a, (![0, 2560] : Fin 2 → Nat) a + S128x128.size a ≤ S128x4096.size a
  inb_S32x128_S1x128_20_0 : ∀ a, (![20, 0] : Fin 2 → Nat) a + S1x128.size a ≤ S32x128.size a
  inb_S32x32_S32x1_0_20 : ∀ a, (![0, 20] : Fin 2 → Nat) a + S32x1.size a ≤ S32x32.size a
  inb_S32x4096_S32x128_0_2688 : ∀ a, (![0, 2688] : Fin 2 → Nat) a + S32x128.size a ≤ S32x4096.size a
  inb_S128x4096_S128x128_0_2688 : ∀ a, (![0, 2688] : Fin 2 → Nat) a + S128x128.size a ≤ S128x4096.size a
  inb_S32x128_S1x128_21_0 : ∀ a, (![21, 0] : Fin 2 → Nat) a + S1x128.size a ≤ S32x128.size a
  inb_S32x32_S32x1_0_21 : ∀ a, (![0, 21] : Fin 2 → Nat) a + S32x1.size a ≤ S32x32.size a
  inb_S32x4096_S32x128_0_2816 : ∀ a, (![0, 2816] : Fin 2 → Nat) a + S32x128.size a ≤ S32x4096.size a
  inb_S128x4096_S128x128_0_2816 : ∀ a, (![0, 2816] : Fin 2 → Nat) a + S128x128.size a ≤ S128x4096.size a
  inb_S32x128_S1x128_22_0 : ∀ a, (![22, 0] : Fin 2 → Nat) a + S1x128.size a ≤ S32x128.size a
  inb_S32x32_S32x1_0_22 : ∀ a, (![0, 22] : Fin 2 → Nat) a + S32x1.size a ≤ S32x32.size a
  inb_S32x4096_S32x128_0_2944 : ∀ a, (![0, 2944] : Fin 2 → Nat) a + S32x128.size a ≤ S32x4096.size a
  inb_S128x4096_S128x128_0_2944 : ∀ a, (![0, 2944] : Fin 2 → Nat) a + S128x128.size a ≤ S128x4096.size a
  inb_S32x128_S1x128_23_0 : ∀ a, (![23, 0] : Fin 2 → Nat) a + S1x128.size a ≤ S32x128.size a
  inb_S32x32_S32x1_0_23 : ∀ a, (![0, 23] : Fin 2 → Nat) a + S32x1.size a ≤ S32x32.size a
  inb_S32x4096_S32x128_0_3072 : ∀ a, (![0, 3072] : Fin 2 → Nat) a + S32x128.size a ≤ S32x4096.size a
  inb_S128x4096_S128x128_0_3072 : ∀ a, (![0, 3072] : Fin 2 → Nat) a + S128x128.size a ≤ S128x4096.size a
  inb_S32x128_S1x128_24_0 : ∀ a, (![24, 0] : Fin 2 → Nat) a + S1x128.size a ≤ S32x128.size a
  inb_S32x32_S32x1_0_24 : ∀ a, (![0, 24] : Fin 2 → Nat) a + S32x1.size a ≤ S32x32.size a
  inb_S32x4096_S32x128_0_3200 : ∀ a, (![0, 3200] : Fin 2 → Nat) a + S32x128.size a ≤ S32x4096.size a
  inb_S128x4096_S128x128_0_3200 : ∀ a, (![0, 3200] : Fin 2 → Nat) a + S128x128.size a ≤ S128x4096.size a
  inb_S32x128_S1x128_25_0 : ∀ a, (![25, 0] : Fin 2 → Nat) a + S1x128.size a ≤ S32x128.size a
  inb_S32x32_S32x1_0_25 : ∀ a, (![0, 25] : Fin 2 → Nat) a + S32x1.size a ≤ S32x32.size a
  inb_S32x4096_S32x128_0_3328 : ∀ a, (![0, 3328] : Fin 2 → Nat) a + S32x128.size a ≤ S32x4096.size a
  inb_S128x4096_S128x128_0_3328 : ∀ a, (![0, 3328] : Fin 2 → Nat) a + S128x128.size a ≤ S128x4096.size a
  inb_S32x128_S1x128_26_0 : ∀ a, (![26, 0] : Fin 2 → Nat) a + S1x128.size a ≤ S32x128.size a
  inb_S32x32_S32x1_0_26 : ∀ a, (![0, 26] : Fin 2 → Nat) a + S32x1.size a ≤ S32x32.size a
  inb_S32x4096_S32x128_0_3456 : ∀ a, (![0, 3456] : Fin 2 → Nat) a + S32x128.size a ≤ S32x4096.size a
  inb_S128x4096_S128x128_0_3456 : ∀ a, (![0, 3456] : Fin 2 → Nat) a + S128x128.size a ≤ S128x4096.size a
  inb_S32x128_S1x128_27_0 : ∀ a, (![27, 0] : Fin 2 → Nat) a + S1x128.size a ≤ S32x128.size a
  inb_S32x32_S32x1_0_27 : ∀ a, (![0, 27] : Fin 2 → Nat) a + S32x1.size a ≤ S32x32.size a
  inb_S32x4096_S32x128_0_3584 : ∀ a, (![0, 3584] : Fin 2 → Nat) a + S32x128.size a ≤ S32x4096.size a
  inb_S128x4096_S128x128_0_3584 : ∀ a, (![0, 3584] : Fin 2 → Nat) a + S128x128.size a ≤ S128x4096.size a
  inb_S32x128_S1x128_28_0 : ∀ a, (![28, 0] : Fin 2 → Nat) a + S1x128.size a ≤ S32x128.size a
  inb_S32x32_S32x1_0_28 : ∀ a, (![0, 28] : Fin 2 → Nat) a + S32x1.size a ≤ S32x32.size a
  inb_S32x4096_S32x128_0_3712 : ∀ a, (![0, 3712] : Fin 2 → Nat) a + S32x128.size a ≤ S32x4096.size a
  inb_S128x4096_S128x128_0_3712 : ∀ a, (![0, 3712] : Fin 2 → Nat) a + S128x128.size a ≤ S128x4096.size a
  inb_S32x128_S1x128_29_0 : ∀ a, (![29, 0] : Fin 2 → Nat) a + S1x128.size a ≤ S32x128.size a
  inb_S32x32_S32x1_0_29 : ∀ a, (![0, 29] : Fin 2 → Nat) a + S32x1.size a ≤ S32x32.size a
  inb_S32x4096_S32x128_0_3840 : ∀ a, (![0, 3840] : Fin 2 → Nat) a + S32x128.size a ≤ S32x4096.size a
  inb_S128x4096_S128x128_0_3840 : ∀ a, (![0, 3840] : Fin 2 → Nat) a + S128x128.size a ≤ S128x4096.size a
  inb_S32x128_S1x128_30_0 : ∀ a, (![30, 0] : Fin 2 → Nat) a + S1x128.size a ≤ S32x128.size a
  inb_S32x32_S32x1_0_30 : ∀ a, (![0, 30] : Fin 2 → Nat) a + S32x1.size a ≤ S32x32.size a
  inb_S32x4096_S32x128_0_3968 : ∀ a, (![0, 3968] : Fin 2 → Nat) a + S32x128.size a ≤ S32x4096.size a
  inb_S128x4096_S128x128_0_3968 : ∀ a, (![0, 3968] : Fin 2 → Nat) a + S128x128.size a ≤ S128x4096.size a
  inb_S32x128_S1x128_31_0 : ∀ a, (![31, 0] : Fin 2 → Nat) a + S1x128.size a ≤ S32x128.size a
  inb_S32x32_S32x1_0_31 : ∀ a, (![0, 31] : Fin 2 → Nat) a + S32x1.size a ≤ S32x32.size a
  inb_S32x128_S32x128_0_0 : ∀ a, (![0, 0] : Fin 2 → Nat) a + S32x128.size a ≤ S32x128.size a
  dot_S32x128_S128x128_S32x128_1_1_0_0_n_n_wf : DotDims.WF S32x128 S128x128 S32x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .i32 = 32 ∨ (Rect.block (s := S11008x4096) S128x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x11008.size a
  hwx0_3 : ∀ i : grid0.Coords, EltTy.bits .f32 = 32 ∨ (Rect.block (s := S32x11008) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x11008.size a
  hwx0_4 : ∀ i : grid0.Coords, EltTy.bits .f32 = 32 ∨ (Rect.block (s := S32x11008) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x11008.size a
  hwx0_5 : ∀ i : grid0.Coords, EltTy.bits .f32 = 32 ∨ (Rect.block (s := S32x11008) S32x128.size (cc0_transform_5 i) (hinb0_5 i)).WholeWords (EltTy.packing .f32)

variable [Facts₀]

def dot_S32x128_S128x128_S32x128_1_1_0_0_n_n : DotDims S32x128 S128x128 S32x128 where
  lhsContracting := [1]
  rhsContracting := [1]
  lhsNonContracting := [0]
  rhsNonContracting := [0]
  lhsBatch := []
  rhsBatch := []
  wf := dot_S32x128_S128x128_S32x128_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096 : Shape := ⟨2, ![32, 4096]⟩
abbrev S11008x4096 : Shape := ⟨2, ![11008, 4096]⟩
abbrev S32x11008x2 : Shape := ⟨3, ![32, 11008, 2]⟩
abbrev S32x11008x1 : Shape := ⟨3, ![32, 11008, 1]⟩
abbrev S32x11008 : Shape := ⟨2, ![32, 11008]⟩
abbrev S11008x32x128 : Shape := ⟨3, ![11008, 32, 128]⟩
abbrev S_ : Shape := ⟨0, ![]⟩
abbrev S11008x32 : Shape := ⟨2, ![11008, 32]⟩
abbrev S11008x32x1 : Shape := ⟨3, ![11008, 32, 1]⟩
abbrev S4096x11008 : Shape := ⟨2, ![4096, 11008]⟩

abbrev nBuf : Space → Nat
  | .hbm => 23
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S11008x4096, .i32⟩
  | .hbm, ⟨2, _⟩ => ⟨S32x11008x2, .f32⟩
  | .hbm, ⟨3, _⟩ => ⟨S32x11008x1, .f32⟩
  | .hbm, ⟨4, _⟩ => ⟨S32x11008, .f32⟩
  | .hbm, ⟨5, _⟩ => ⟨S32x11008x1, .f32⟩
  | .hbm, ⟨6, _⟩ => ⟨S32x11008, .f32⟩
  | .hbm, ⟨7, _⟩ => ⟨S11008x32x128, .i32⟩
  | .hbm, ⟨8, _⟩ => ⟨S11008x32x128, .f32⟩
  | .hbm, ⟨9, _⟩ => ⟨S_, .f32⟩
  | .hbm, ⟨10, _⟩ => ⟨S11008x32x128, .f32⟩
  | .hbm, ⟨11, _⟩ => ⟨S11008x32x128, .f32⟩
  | .hbm, ⟨12, _⟩ => ⟨S11008x32, .f32⟩
  | .hbm, ⟨13, _⟩ => ⟨S11008x32x1, .f32⟩
  | .hbm, ⟨14, _⟩ => ⟨S11008x32x128, .f32⟩
  | .hbm, ⟨15, _⟩ => ⟨S11008x32x128, .f32⟩
  | .hbm, ⟨16, _⟩ => ⟨S11008x32, .f32⟩
  | .hbm, ⟨17, _⟩ => ⟨S11008x32x1, .f32⟩
  | .hbm, ⟨18, _⟩ => ⟨S11008x32x128, .f32⟩
  | .hbm, ⟨19, _⟩ => ⟨S11008x32x128, .f32⟩
  | .hbm, ⟨20, _⟩ => ⟨S11008x4096, .f32⟩
  | .hbm, ⟨21, _⟩ => ⟨S4096x11008, .f32⟩
  | .hbm, ⟨22, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  slices_S32x11008x2_S32x11008x1_0_0_0 : S32x11008x2.Slices ![0, 0, 0] S32x11008x1
  shapeCasts_S32x11008x1_S32x11008 : S32x11008x1.ShapeCasts S32x11008
  slices_S32x11008x2_S32x11008x1_0_0_1 : S32x11008x2.Slices ![0, 0, 1] S32x11008x1
  shapeCasts_S11008x4096_S11008x32x128 : S11008x4096.ShapeCasts S11008x32x128
  bcast_S_S11008x32x128 : S_.BroadcastsInDim S11008x32x128 (![] : Fin 0 → Fin S11008x32x128.rank)
  transposes_S32x11008_S11008x32_1_0 : S32x11008.Transposes [1, 0] S11008x32
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  dot_S32x4096_S4096x11008_S32x11008_1_0_0_1_n_n_wf : DotDims.WF S32x4096 S4096x11008 S32x11008 [1] [0] [0] [1] [] []

variable [Facts₀]

def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.GroupedSum.lean ====
/-
  Sums over 4096 columns taken in 32 groups of 128.

  Two facts, about no program.  (1) In any additive commutative monoid a sum over the first m·n naturals is the
  sum, over n groups, of each group's m consecutive terms; and an accumulation that starts at zero and adds, group
  after group, first one term and then another, is the sum over the groups of the two terms' sum.  Neither needs
  a term to be finite.  (2) For REAL numbers, inside one group, a common factor s and a common addend z come out of
  the sum: Σ_k x_k·(w_k·s + z) = (Σ_k x_k·w_k)·s + (Σ_k x_k)·z.  On the extended reals this is distributivity, which
  fails at the infinities, so it is stated of coerced reals.
-/
import Idealize.ShloMosaic.PureOps.Ideal

noncomputable section

open scoped BigOperators

namespace Cert.GroupedSum

/-- A sum over the first m·n naturals, taken group by group: n groups of m consecutive terms. -/
theorem sum_range_mul {M : Type*} [AddCommMonoid M] (f : ℕ → M) (m : ℕ) :
    ∀ n : ℕ, ∑ j ∈ Finset.range (m * n), f j = ∑ i ∈ Finset.range n, ∑ k ∈ Finset.range m, f (m * i + k)
  | 0 => by simp
  | n + 1 => by
    rw [Nat.mul_succ, Finset.sum_range_add, sum_range_mul f m n, Finset.sum_range_succ]

/-- The accumulation over the first g groups: from zero, each group adds its term a and then its term b. -/
def accumulate {M : Type*} [AddCommMonoid M] (a b : ℕ → M) : ℕ → M
  | 0 => 0
  | g + 1 => (accumulate a b g + a g) + b g

/-- It is the sum over the groups of a + b (addition is associative: nothing is assumed finite). -/
theorem accumulate_eq_sum {M : Type*} [AddCommMonoid M] (a b : ℕ → M) :
    ∀ g : ℕ, accumulate a b g = ∑ i ∈ Finset.range g, (a i + b i)
  | 0 => by simp [accumulate]
  | g + 1 => by rw [accumulate, accumulate_eq_sum a b g, Finset.sum_range_succ, add_assoc]

/-- Two accumulations with the same terms, group by group, are equal. -/
theorem accumulate_congr {M : Type*} [AddCommMonoid M] {a a' b b' : ℕ → M} (ha : ∀ g, a g = a' g) (hb : ∀ g, b g = b' g)
    (n : ℕ) : accumulate a b n = accumulate a' b' n := by
  rw [show a = a' from funext ha, show b = b' from funext hb]

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Inside one group the common scale s and the common offset z come out of the sum — for real entries.
    The row sum on the right carries the explicit zero it is accumulated from. -/
theorem group_distrib {ι : Type*} [Fintype ι] (x w : ι → ℝ) (s z : ℝ) :
    ∑ k, (x k : EReal) * ((w k : EReal) * (s : EReal) + (z : EReal))
      = (∑ k, (x k : EReal) * (w k : EReal)) * (s : EReal) + ((0 : EReal) + ∑ k, (x k : EReal)) * (z : EReal) := by
  have hL : ∑ k, (x k : EReal) * ((w k : EReal) * (s : EReal) + (z : EReal))
      = ((∑ k, x k * (w k * s + z) : ℝ) : EReal) := by
    rw [coe_sum]; exact Finset.sum_congr rfl fun k _ => by rw [EReal.coe_mul, EReal.coe_add, EReal.coe_mul]
  have hP : ∑ k, (x k : EReal) * (w k : EReal) = ((∑ k, x k * w k : ℝ) : EReal) := by
    rw [coe_sum]; exact Finset.sum_congr rfl fun k _ => by rw [EReal.coe_mul]
  have hX : ∑ k, (x k : EReal) = ((∑ k, x k : ℝ) : EReal) := (coe_sum _ _).symm
  rw [hL, hP, hX, zero_add, ← EReal.coe_mul, ← EReal.coe_mul, ← EReal.coe_add]
  congr 1
  rw [Finset.sum_mul, Finset.sum_mul, ← Finset.sum_add_distrib]
  exact Finset.sum_congr rfl fun k _ => by ring

/-- The sum over all 4096 columns of x_j·(w_j·s_{j/128} + z_{j/128}) is the accumulation, over the 32 groups, of the
    group's product sum times its scale and of its row sum (from zero) times its offset — for real entries. -/
theorem regroup (x w s z : ℕ → ℝ) :
    ∑ j ∈ Finset.range 4096, (x j : EReal) * ((w j : EReal) * (s (j / 128) : EReal) + (z (j / 128) : EReal))
      = accumulate (fun i => (∑ k : Fin 128, (x (128 * i + k) : EReal) * (w (128 * i + k) : EReal)) * (s i : EReal))
          (fun i => ((0 : EReal) + ∑ k : Fin 128, (x (128 * i + k) : EReal)) * (z i : EReal)) 32 := by
  rw [accumulate_eq_sum, show (4096 : ℕ) = 128 * 32 from rfl, sum_range_mul]
  refine Finset.sum_congr rfl fun i _ => ?_
  rw [Finset.sum_range]
  have hd : ∀ k : Fin 128, (128 * i + k.val) / 128 = i := fun k => by have := k.isLt; omega
  simp only [hd]
  exact group_distrib (fun k : Fin 128 => x (128 * i + k)) (fun k : Fin 128 => w (128 * i + k)) (s i) (z i)

end Cert.GroupedSum

end
-- ==== Proof.GroupBody.lean ====
/-
  The kernel body, group by group.

  A block of the output is a [32, 128] tile: rows m of x against 128 rows j of the quantized weight.  The body
  walks the 4096 columns in 32 groups of 128.  For group g it multiplies the 32×128 slice of x by the transposed
  128×128 slice of (q − 8), scales column j of the product by the group's scale s[g, j], adds that to the
  accumulator, and then adds the group's row sum xsum[m, g] times the group's offset z[g, j].  The printed body is
  those 32 steps written out one after the other; here one step is named, the accumulator after g steps is defined
  by recursion on g, and the body's stored tile is shown to be the accumulator after 32 steps.  Read at an entry
  (m, j), at the ideal instance, the accumulator after g steps is the accumulation over the first g groups of
      (Σ_{k<128} x[m, 128g+k] · (q[j, 128g+k] − 8)) · s[g, j]      and      xsum[m, g] · z[g, j].
-/
import proofs.«105134_j9062380994905_2_alg».proof.Proof.Gen.KernelIdeal.Frame
import proofs.«105134_j9062380994905_2_alg».proof.Proof.GroupedSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GroupBody

open Cert.KernelIdeal Cert.KernelIdeal.Gen Idealize.ShloMosaic Idealize.ShloMosaic.ValueIdx

/-! ## One step, the rectangles it loads through, and the accumulator after g steps -/

section AnyInstance
variable {F : FTy → Type} [FloatOps F]

/-- One group's step: the accumulator, plus the slice product scaled column by column, plus the row sums times the
    offsets.  The operations are the body's, in the body's order. -/
def step (acc : FVec F S32x128 .f32) (xg : Vec F S32x128 .f32) (qg : Vec F S128x128 .i32) (sg zg : Vec F S1x128 .f32)
    (xs : Vec F S32x1 .f32) : FVec F S32x128 .f32 :=
  addf (addf acc (mulf (matmul dot_S32x128_S128x128_S32x128_1_1_0_0_n_n none (truncf .bf16 xg bitsLt_bf16_f32)
        (truncf .bf16 (subf (sitofp .f32 qg) (broadcast S128x128 (Scalar.ofBits .f32 0x41000000#32))) bitsLt_bf16_f32)
        (constant S32x128 .f32 0x00000000#32))
      (broadcastTo S32x128 (shapeCast S1x128 (shapeCast S128 sg shapeCasts_S1x128_S128) shapeCasts_S128_S1x128) broadcasts_S1x128_S32x128)))
    (mulf (broadcastTo S32x128 (shapeCast S32x1 xs shapeCasts_S32x1_S32x1) broadcasts_S32x1_S32x128)
      (broadcastTo S32x128 (shapeCast S1x128 (shapeCast S128 zg shapeCasts_S1x128_S128) shapeCasts_S128_S1x128) broadcasts_S1x128_S32x128))

/-- Group g's 128 columns of x (all 32 rows).  The group number is taken mod 32, so the rectangle is inside the
    array for every natural g. -/
abbrev rx (g : ℕ) : Rect S32x4096 :=
  Rect.unit (s := S32x4096) ![0, 128 * (g % 32)] S32x128.size
    (Rect.inb₂ (by show 0 + 32 ≤ 32; omega) (by show 128 * (g % 32) + 128 ≤ 4096; omega))
/-- Group g's 128 columns of the weight tile (all 128 rows). -/
abbrev rq (g : ℕ) : Rect S128x4096 :=
  Rect.unit (s := S128x4096) ![0, 128 * (g % 32)] S128x128.size
    (Rect.inb₂ (by show 0 + 128 ≤ 128; omega) (by show 128 * (g % 32) + 128 ≤ 4096; omega))
/-- Row g of a [32, 128] tile of scales or of offsets. -/
abbrev rs (g : ℕ) : Rect S32x128 :=
  Rect.unit (s := S32x128) ![g % 32, 0] S1x128.size
    (Rect.inb₂ (by show g % 32 + 1 ≤ 32; omega) (by show 0 + 128 ≤ 128; omega))
/-- Column g of the [32, 32] array of row sums. -/
abbrev rxs (g : ℕ) : Rect S32x32 :=
  Rect.unit (s := S32x32) ![0, g % 32] S32x1.size
    (Rect.inb₂ (by show 0 + 32 ≤ 32; omega) (by show g % 32 + 1 ≤ 32; omega))

/-- The accumulator after the first g groups, from the zero tile. -/
def accG (x0 : Vec F S32x4096 .f32) (x1 : Vec F S32x32 .f32) (x2 : Vec F S128x4096 .i32) (x3 x4 : Vec F S32x128 .f32) :
    ℕ → FVec F S32x128 .f32
  | 0 => broadcast S32x128 (Scalar.ofBits .f32 0x00000000#32)
  | g + 1 => step (accG x0 x1 x2 x3 x4 g) (View.ld x0 (rx g)) (View.ld x2 (rq g)) (View.ld x3 (rs g)) (View.ld x4 (rs g))
      (View.ld x1 (rxs g))

theorem zero_offsets : (![0, 0] : Fin 2 → Nat) = fun _ => 0 := funext fun a => by fin_cases a <;> rfl

set_option maxHeartbeats 2000000 in
/-- What the body leaves in the output's staging buffer is the accumulator after all 32 groups: the body's one
    store covers the tile, and its value is the 32 steps written out (the group numbers and column offsets are
    literals there; they are these by computation). -/
theorem out_eq_acc (x0 : Vec F S32x4096 .f32) (x1 : Vec F S32x32 .f32) (x2 : Vec F S128x4096 .i32) (x3 x4 : Vec F S32x128 .f32) :
    out0_5 x0 x1 x2 x3 x4 = accG x0 x1 x2 x3 x4 32 := by
  unfold out0_5
  rw [View.canon_unit_zero zero_offsets]
  rfl

/-- A load through a unit-stride rectangle of a two-axis array, read at (i, j): the array at the rectangle's corner
    plus (i, j). -/
theorem ld_unit_ix2 {Val : EltTy → Type} {e : EltTy} {A B p q : ℕ} (X : (⟨2, ![A, B]⟩ : Shape).Idx → Val e) (a b : ℕ)
    (inb : ∀ ax, (![a, b] : Fin 2 → ℕ) ax + (![p, q] : Fin 2 → ℕ) ax ≤ (⟨2, ![A, B]⟩ : Shape).size ax)
    (i : Fin p) (j : Fin q) (i' : Fin A) (j' : Fin B) (hi : i'.val = a + i.val) (hj : j'.val = b + j.val) :
    View.ld X (Rect.unit ![a, b] ![p, q] inb) (ix2 i j) = X (ix2 i' j') := by
  show X _ = X _
  congr 1; funext ax; apply Fin.ext
  match ax with
  | ⟨0, _⟩ => show a + 1 * i.val = i'.val; omega
  | ⟨1, _⟩ => show b + 1 * j.val = j'.val; omega

end AnyInstance

/-- Column k of group g among the 4096 columns. -/
abbrev col (g : ℕ) (k : Fin 128) : Fin 4096 := ⟨128 * (g % 32) + k.val, by have := k.isLt; omega⟩
/-- Group g among the 32 groups. -/
abbrev grp (g : ℕ) : Fin 32 := ⟨g % 32, Nat.mod_lt _ (by decide)⟩

section Loads
variable {Val : EltTy → Type}

theorem ld_x (x0 : S32x4096.Idx → Val .f32) (g : ℕ) (m : Fin 32) (k : Fin 128) :
    View.ld x0 (rx g) (ix2 m k) = x0 (ix2 m (col g k)) :=
  ld_unit_ix2 x0 0 (128 * (g % 32)) _ m k m (col g k) (by omega) rfl
theorem ld_q (x2 : S128x4096.Idx → Val .i32) (g : ℕ) (j k : Fin 128) :
    View.ld x2 (rq g) (ix2 j k) = x2 (ix2 j (col g k)) :=
  ld_unit_ix2 x2 0 (128 * (g % 32)) _ j k j (col g k) (by omega) rfl
theorem ld_row (x3 : S32x128.Idx → Val .f32) (g : ℕ) (j : Fin 128) :
    View.ld x3 (rs g) (ix2 (0 : Fin 1) j) = x3 (ix2 (grp g) j) :=
  ld_unit_ix2 x3 (g % 32) 0 _ (0 : Fin 1) j (grp g) j rfl (by omega)
theorem ld_xsum (x1 : S32x32.Idx → Val .f32) (g : ℕ) (m : Fin 32) :
    View.ld x1 (rxs g) (ix2 m (0 : Fin 1)) = x1 (ix2 m (grp g)) :=
  ld_unit_ix2 x1 0 (g % 32) _ m (0 : Fin 1) m (grp g) (by omega) rfl

end Loads

/-! ## Reading a step at an entry, at the ideal instance -/

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The slice product at (m, j): row m of the left operand against ROW j of the right one (the contraction runs
    over the second axis of both: the right operand enters transposed), into the zero accumulator. -/
theorem lhs_row (i : S32x128.Idx) (q : dot_S32x128_S128x128_S32x128_1_1_0_0_n_n.contr.Idx) :
    (dot_S32x128_S128x128_S32x128_1_1_0_0_n_n.lhsIdx i q 0).val = (i 0).val := by
  unfold DotDims.lhsIdx
  rw [dif_neg (show ¬(0 : Fin S32x128.rank) ∈ dot_S32x128_S128x128_S32x128_1_1_0_0_n_n.lhsBatch by decide),
    dif_pos (show (0 : Fin S32x128.rank) ∈ dot_S32x128_S128x128_S32x128_1_1_0_0_n_n.lhsNonContracting by decide)]
  rfl
theorem rhs_row (i : S32x128.Idx) (q : dot_S32x128_S128x128_S32x128_1_1_0_0_n_n.contr.Idx) :
    (dot_S32x128_S128x128_S32x128_1_1_0_0_n_n.rhsIdx i q 0).val = (i 1).val := by
  unfold DotDims.rhsIdx
  rw [dif_neg (show ¬(0 : Fin S128x128.rank) ∈ dot_S32x128_S128x128_S32x128_1_1_0_0_n_n.rhsBatch by decide),
    dif_pos (show (0 : Fin S128x128.rank) ∈ dot_S32x128_S128x128_S32x128_1_1_0_0_n_n.rhsNonContracting by decide)]
  rfl

theorem matmul_at (l : FVec Ideal S32x128 .bf16) (r : FVec Ideal S128x128 .bf16) (m : Fin 32) (j : Fin 128) :
    matmul dot_S32x128_S128x128_S32x128_1_1_0_0_n_n none l r (constant (F := Ideal) S32x128 .f32 0x00000000#32) (ix2 m j)
      = ∑ k : Fin 128, l (ix2 m k) * r (ix2 j k) := by
  simp only [matmul]
  rw [Ideal.matmul_constant_zero_apply,
    ← Equiv.sum_comp (contrEquiv1 dot_S32x128_S128x128_S32x128_1_1_0_0_n_n 128 rfl rfl).symm]
  refine Finset.sum_congr rfl fun k _ => ?_
  have hk := contrEquiv1_symm_val dot_S32x128_S128x128_S32x128_1_1_0_0_n_n 128 rfl rfl k
  have el : dot_S32x128_S128x128_S32x128_1_1_0_0_n_n.lhsIdx (ix2 m j)
      ((contrEquiv1 dot_S32x128_S128x128_S32x128_1_1_0_0_n_n 128 rfl rfl).symm k) = ix2 m k :=
    funext fun a => Fin.ext (by
      match a with
      | ⟨0, _⟩ => exact lhs_row _ _
      | ⟨1, _⟩ => exact (dot_S32x128_S128x128_S32x128_1_1_0_0_n_n.lhsIdx_val_of_single rfl _ _).trans hk)
  have er : dot_S32x128_S128x128_S32x128_1_1_0_0_n_n.rhsIdx (ix2 m j)
      ((contrEquiv1 dot_S32x128_S128x128_S32x128_1_1_0_0_n_n 128 rfl rfl).symm k) = ix2 j k :=
    funext fun a => Fin.ext (by
      match a with
      | ⟨0, _⟩ => exact rhs_row _ _
      | ⟨1, _⟩ => exact (dot_S32x128_S128x128_S32x128_1_1_0_0_n_n.rhsIdx_val_of_single rfl _ _).trans hk)
  rw [el, er]

/-- One step at (m, j): the accumulator there, plus Σ_k xg[m, k]·(qg[j, k] − 8) times the scale at j, plus the row
    sum at m times the offset at j.  (The changes of float format are the identity here; the integer is read
    signed and exactly; the literal 8.0 is left as its word.) -/
theorem step_apply (acc : FVec Ideal S32x128 .f32) (xg : Vec Ideal S32x128 .f32) (qg : Vec Ideal S128x128 .i32)
    (sg zg : Vec Ideal S1x128 .f32) (xs : Vec Ideal S32x1 .f32) (m : Fin 32) (j : Fin 128) :
    step acc xg qg sg zg xs (ix2 m j)
      = (acc (ix2 m j)
          + (∑ k : Fin 128, xg (ix2 m k) * ((((qg (ix2 j k)).toInt : ℝ) : EReal) - Ideal.ofBits .f32 0x41000000#32))
            * sg (ix2 (0 : Fin 1) j))
        + xs (ix2 m (0 : Fin 1)) * zg (ix2 (0 : Fin 1) j) := by
  unfold step
  rw [addf_apply, addf_apply, mulf_apply, mulf_apply, shapeCast_shapeCast, shapeCast_shapeCast, shapeCast_self,
    broadcastTo_1b_ab_apply, broadcastTo_1b_ab_apply, broadcastTo_a1_ab_apply, matmul_at]
  rfl

/-- The accumulator after g groups at (m, j): the accumulation, over the first g groups, of the scaled slice
    product and of the row sum times the offset — each read off the staged blocks x0 (x), x1 (row sums), x2 (the
    weight tile), x3 (scales), x4 (offsets). -/
theorem acc_apply (x0 : Vec Ideal S32x4096 .f32) (x1 : Vec Ideal S32x32 .f32) (x2 : Vec Ideal S128x4096 .i32)
    (x3 x4 : Vec Ideal S32x128 .f32) (m : Fin 32) (j : Fin 128) :
    ∀ g : ℕ, accG x0 x1 x2 x3 x4 g (ix2 m j)
      = Cert.GroupedSum.accumulate
          (fun i => (∑ k : Fin 128, x0 (ix2 m (col i k))
              * ((((x2 (ix2 j (col i k))).toInt : ℝ) : EReal) - Ideal.ofBits .f32 0x41000000#32)) * x3 (ix2 (grp i) j))
          (fun i => x1 (ix2 m (grp i)) * x4 (ix2 (grp i) j)) g
  | 0 => by
    show Ideal.ofBits .f32 0x00000000#32 = 0
    exact Ideal.ofBits_zero_f32
  | g + 1 => by
    rw [accG, step_apply, acc_apply x0 x1 x2 x3 x4 m j g, Cert.GroupedSum.accumulate]
    have hs : (∑ k : Fin 128, View.ld x0 (rx g) (ix2 m k)
          * ((((View.ld x2 (rq g) (ix2 j k)).toInt : ℝ) : EReal) - Ideal.ofBits .f32 0x41000000#32))
        = ∑ k : Fin 128, x0 (ix2 m (col g k))
          * ((((x2 (ix2 j (col g k))).toInt : ℝ) : EReal) - Ideal.ofBits .f32 0x41000000#32) :=
      Finset.sum_congr rfl fun k _ => by rw [ld_x x0 g m k, ld_q x2 g j k]
    rw [hs, ld_row x3 g j, ld_row x4 g j, ld_xsum x1 g m]

end Cert.KernelIdeal.GroupBody

end
-- ==== Proof.Tiles.lean ====
/-
  From tiles to the array.

  The grid has 86 points; point t computes the [32, 128] tile of columns 128t … 128t+127 of the [32, 11008] result.
  At every point x and the row sums are staged whole; the weight is staged as its rows 128t … 128t+127 (all 4096
  columns); the scales and the offsets as their columns 128t … 128t+127 (all 32 groups).  So the tile's entry (p, j)
  is the accumulation of the group-body module read at row p of x and row n = 128t + j of the weight, of the scales
  and of the offsets: one function `kernelArr` of the arrays as the region finds them, of which point t writes
  tile t.  The 86 tiles cover the array (column n lies in tile n / 128), so after the run the result array is
  `kernelArr`.
-/
import proofs.«105134_j9062380994905_2_alg».proof.Proof.Gen.KernelIdeal.Value
import proofs.«105134_j9062380994905_2_alg».proof.Proof.GroupBody

set_option maxRecDepth 16384

noncomputable section

open scoped BigOperators

namespace Cert.KernelIdeal.Tiles

open Cert.KernelIdeal Cert.KernelIdeal.Gen Cert.KernelIdeal.GroupBody
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the grid: x and the row sums do not move; the weight moves down its rows with the
    point; the scales, the offsets and the result move along their columns with the point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- Row (of the weight) or column (of the scales, the offsets, the result) j of point t's tile, in the array. -/
def row (t : Fin cfg0.N) (j : Fin 128) : Fin 11008 :=
  ⟨128 * t.val + j.val, by have := t.isLt; have hN : cfg0.N = 86 := N_0; have := j.isLt; omega⟩

theorem row_val (t : Fin cfg0.N) (j : Fin 128) : (row t j).val = 128 * t.val + j.val := rfl

/-! ## Each window's block at a point, read off its array -/

theorem blk_x (c : Dev nD) (t : Fin cfg0.N) (y : S32x4096.Idx) :
    (iblk m c 0 t : Vec Ideal S32x4096 .f32) y = (V m c main_arg0 : S32x4096.Idx → Elt Ideal .f32) y := by
  obtain ⟨e0, e1, -⟩ := idx_facts t
  unfold iblk
  rw [View.read_apply]
  show V m c main_arg0 _ = V m c main_arg0 _
  congr 1; funext a; apply Fin.ext
  match a with
  | ⟨0, _⟩ => show win0_0.index t 0 * 32 + 1 * (y 0).val = (y 0).val; rw [e0]; omega
  | ⟨1, _⟩ => show win0_0.index t 1 * 4096 + 1 * (y 1).val = (y 1).val; rw [e1]; omega

theorem blk_xsum (c : Dev nD) (t : Fin cfg0.N) (y : S32x32.Idx) :
    (iblk m c 1 t : Vec Ideal S32x32 .f32) y = (V m c main_v5 : S32x32.Idx → Elt Ideal .f32) y := by
  obtain ⟨-, -, e0, e1, -⟩ := idx_facts t
  unfold iblk
  rw [View.read_apply]
  show V m c main_v5 _ = V m c main_v5 _
  congr 1; funext a; apply Fin.ext
  match a with
  | ⟨0, _⟩ => show win0_1.index t 0 * 32 + 1 * (y 0).val = (y 0).val; rw [e0]; omega
  | ⟨1, _⟩ => show win0_1.index t 1 * 32 + 1 * (y 1).val = (y 1).val; rw [e1]; omega

theorem blk_q (c : Dev nD) (t : Fin cfg0.N) (j : Fin 128) (k : Fin 4096) :
    (iblk m c 2 t : Vec Ideal S128x4096 .i32) (ix2 j k)
      = (V m c main_arg1 : S11008x4096.Idx → Elt Ideal .i32) (ix2 (row t j) k) := by
  obtain ⟨-, -, -, -, e0, e1, -⟩ := idx_facts t
  unfold iblk
  rw [View.read_apply]
  show V m c main_arg1 _ = V m c main_arg1 _
  congr 1; funext a; apply Fin.ext
  match a with
  | ⟨0, _⟩ => show win0_2.index t 0 * 128 + 1 * j.val = 128 * t.val + j.val; rw [e0]; omega
  | ⟨1, _⟩ => show win0_2.index t 1 * 4096 + 1 * k.val = k.val; rw [e1]; omega

theorem blk_scale (c : Dev nD) (t : Fin cfg0.N) (g : Fin 32) (j : Fin 128) :
    (iblk m c 3 t : Vec Ideal S32x128 .f32) (ix2 g j)
      = (V m c main_v1 : S32x11008.Idx → Elt Ideal .f32) (ix2 g (row t j)) := by
  obtain ⟨-, -, -, -, -, -, e0, e1, -⟩ := idx_facts t
  unfold iblk
  rw [View.read_apply]
  show V m c main_v1 _ = V m c main_v1 _
  congr 1; funext a; apply Fin.ext
  match a with
  | ⟨0, _⟩ => show win0_3.index t 0 * 32 + 1 * g.val = g.val; rw [e0]; omega
  | ⟨1, _⟩ => show win0_3.index t 1 * 128 + 1 * j.val = 128 * t.val + j.val; rw [e1]; omega

theorem blk_offset (c : Dev nD) (t : Fin cfg0.N) (g : Fin 32) (j : Fin 128) :
    (iblk m c 4 t : Vec Ideal S32x128 .f32) (ix2 g j)
      = (V m c main_v3 : S32x11008.Idx → Elt Ideal .f32) (ix2 g (row t j)) := by
  obtain ⟨-, -, -, -, -, -, -, -, e0, e1, -⟩ := idx_facts t
  unfold iblk
  rw [View.read_apply]
  show V m c main_v3 _ = V m c main_v3 _
  congr 1; funext a; apply Fin.ext
  match a with
  | ⟨0, _⟩ => show win0_4.index t 0 * 32 + 1 * g.val = g.val; rw [e0]; omega
  | ⟨1, _⟩ => show win0_4.index t 1 * 128 + 1 * j.val = 128 * t.val + j.val; rw [e1]; omega

/-- Where entry (p, j) of point t's result tile sits in the result array. -/
theorem emb_out (t : Fin cfg0.N) (p : Fin 32) (j : Fin 128) :
    ((cfg0.win 5).blk t).view.emb (ix2 p j) = ix2 p (row t j) := by
  obtain ⟨-, -, -, -, -, -, -, -, -, -, e0, e1⟩ := idx_facts t
  funext a; apply Fin.ext
  match a with
  | ⟨0, _⟩ => show win0_5.index t 0 * 32 + 1 * p.val = p.val; rw [e0]; omega
  | ⟨1, _⟩ => show win0_5.index t 1 * 128 + 1 * j.val = 128 * t.val + j.val; rw [e1]; omega

/-! ## The result array as one function of the arrays the region finds -/

/-- Entry (p, n): the accumulation over the 32 groups of the scaled slice product of row p of X with row n of Q − 8,
    and of the row sum times the offset. -/
def kernelEntry (X : S32x4096.Idx → Elt Ideal .f32) (XS : S32x32.Idx → Elt Ideal .f32) (Q : S11008x4096.Idx → Elt Ideal .i32)
    (SC ZR : S32x11008.Idx → Elt Ideal .f32) (p : Fin 32) (n : Fin 11008) : EReal :=
  Cert.GroupedSum.accumulate
    (fun i => (∑ k : Fin 128, X (ix2 p (col i k))
        * ((((Q (ix2 n (col i k))).toInt : ℝ) : EReal) - Ideal.ofBits .f32 0x41000000#32)) * SC (ix2 (grp i) n))
    (fun i => XS (ix2 p (grp i)) * ZR (ix2 (grp i) n)) 32

/-- The result array: `kernelEntry` of x, the row sums, the weight, the scales and the offsets as the region finds
    them. -/
def kernelArr (c : Dev nD) : S32x11008.Idx → Elt Ideal .f32 := fun i =>
  kernelEntry (V m c main_arg0) (V m c main_v5) (V m c main_arg1) (V m c main_v1) (V m c main_v3) (i 0) (i 1)

/-- What point t writes back is tile t of `kernelArr`. -/
theorem flushed_eq (c : Dev nD) (t : Fin cfg0.N) :
    (dats m 0 c).flushed 5 t = ((cfg0.win 5).blk t).view.read (Elt Ideal) (kernelArr m c) := by
  rw [Cert.KernelIdeal.Value.flushed5, out_eq_acc]
  funext y
  obtain ⟨p, j, rfl⟩ : ∃ (p : Fin 32) (j : Fin 128), y = ix2 p j := ⟨y 0, y 1, eq_ix2 y⟩
  show accG (iblk m c 0 t) (iblk m c 1 t) (iblk m c 2 t) (iblk m c 3 t) (iblk m c 4 t) 32 (ix2 p j)
    = kernelArr m c (((cfg0.win 5).blk t).view.emb (ix2 p j))
  rw [acc_apply, emb_out]
  show _ = kernelEntry (V m c main_arg0) (V m c main_v5) (V m c main_arg1) (V m c main_v1) (V m c main_v3) p (row t j)
  unfold kernelEntry
  simp only [blk_x, blk_xsum, blk_q, blk_scale, blk_offset]

/-! ## The tiles cover the array -/

theorem mem_tile (t : Fin cfg0.N) (i : S32x11008.Idx) :
    i ∈ ((cfg0.win 5).blk t).view.set ↔ ∀ a : Fin 2, win0_5.index t a * S32x128.size a ≤ (i a).val
      ∧ (i a).val < win0_5.index t a * S32x128.size a + S32x128.size a := by
  show i ∈ ((View.whole main_v6).slice (win0_5.rect t)).set ↔ _
  rw [View.set_slice_whole, Rect.mem_set_unit]
  exact Iff.rfl

/-- Column n lies in the tile of point n / 128, which writes back. -/
theorem covered (i : S32x11008.Idx) :
    ∃ t : Fin cfg0.N, (cfg0.win 5).flush t = true ∧ i ∈ ((cfg0.win 5).blk t).view.set := by
  have h0 : (i 0).val < 32 := (i 0).isLt
  have h1 : (i 1).val < 11008 := (i 1).isLt
  have hN : cfg0.N = 86 := N_0
  obtain ⟨t, ht⟩ : ∃ t : Fin cfg0.N, t.val = (i 1).val / 128 := ⟨⟨(i 1).val / 128, by rw [hN]; omega⟩, rfl⟩
  obtain ⟨-, -, -, -, -, -, -, -, -, -, e0, e1⟩ := idx_facts t
  refine ⟨t, flush0_5 t, ?_⟩
  rw [mem_tile]
  intro a
  match a with
  | ⟨0, _⟩ =>
    show win0_5.index t 0 * 32 ≤ (i 0).val ∧ (i 0).val < win0_5.index t 0 * 32 + 32
    rw [e0]; omega
  | ⟨1, _⟩ =>
    show win0_5.index t 1 * 128 ≤ (i 1).val ∧ (i 1).val < win0_5.index t 1 * 128 + 128
    rw [e1, ht]; omega

/-- After the run the result array is `kernelArr`. -/
theorem final (c : Dev nD) : (dats m 0 c).arrAt 5 cfg0.N = kernelArr m c :=
  (dats m 0 c).arrAt_eq_of_cover 5 (kernelArr m c) (fun t _ => flushed_eq m c t) covered

/-- The kernel's run, read: the result array at `kernelArr`, the arguments unchanged. -/
theorem run : θ_run defs (onTc (τ := τ) (main (F := Ideal))) ⟨m, fun _ => 0, ρ⟩ fun r => ∀ c : Dev nD,
      r.2.mem ((c : Thread nD τ).loc main_v6) = kernelArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Tiles

end
-- ==== Proof.HostPrefix.lean ====
/-
  The arrays the kernel's host operations prepare, read at an entry.

  Before the region the program slices the [32, 11008, 2] array of pairs into the scales (last coordinate 0) and
  the offsets (last coordinate 1), each reshaped to [32, 11008], and sums x over each group of 128 columns: x
  reshaped to [32, 32, 128] and reduced over the last axis from the initial value 0.0.  So at entries
      scales[g, n] = pairs[g, n, 0],    offsets[g, n] = pairs[g, n, 1],    rowsums[p, g] = 0 + Σ_{k<128} x[p, 128g + k].
-/
import proofs.«105134_j9062380994905_2_alg».proof.Proof.Gen.KernelIdeal.Frame
import proofs.«105134_j9062380994905_2_alg».proof.Proof.GroupBody
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HostPrefix

open Cert.KernelIdeal Cert.KernelIdeal.Gen Cert.KernelIdeal.GroupBody
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The three argument arrays, as functions of an index with their entries' types. -/
abbrev argX (c : Dev nD) : S32x4096.Idx → Elt Ideal .f32 := m ((c : Thread nD τ).loc main_arg0)
abbrev argQ (c : Dev nD) : S11008x4096.Idx → Elt Ideal .i32 := m ((c : Thread nD τ).loc main_arg1)
abbrev argSZ (c : Dev nD) : S32x11008x2.Idx → Elt Ideal .f32 := m ((c : Thread nD τ).loc main_arg2)

/-- The scales as the region finds them: the pairs sliced at last coordinate 0, the unit axis dropped. -/
theorem scales_eq (c : Dev nD) : (V m c main_v1 : S32x11008.Idx → Elt Ideal .f32)
    = shapeCast S32x11008 (extractStridedSlice S32x11008x1 ![0, 0, 0] (m ((c : Thread nD τ).loc main_arg2))
        slices_S32x11008x2_S32x11008x1_0_0_0) shapeCasts_S32x11008x1_S32x11008 := by
  dsimp only [V, hostOps0]; after_results; rfl

/-- The offsets: the pairs sliced at last coordinate 1. -/
theorem offsets_eq (c : Dev nD) : (V m c main_v3 : S32x11008.Idx → Elt Ideal .f32)
    = shapeCast S32x11008 (extractStridedSlice S32x11008x1 ![0, 0, 1] (m ((c : Thread nD τ).loc main_arg2))
        slices_S32x11008x2_S32x11008x1_0_0_1) shapeCasts_S32x11008x1_S32x11008 := by
  dsimp only [V, hostOps0]; after_results; rfl

/-- The row sums: x as [32, 32, 128], summed over the last axis from 0.0. -/
theorem rowsums_eq (c : Dev nD) : (V m c main_v5 : S32x32.Idx → Elt Ideal .f32)
    = Host.reduceAdd (shapeCast S32x32x128 (m ((c : Thread nD τ).loc main_arg0)) shapeCasts_S32x4096_S32x32x128)
        (constant (F := Ideal) S_ .f32 0x00000000#32) reducesTo_S32x32x128_S32x32_d2 h_S_ := by
  dsimp only [V, hostOps0]; after_results; rfl

theorem scale_apply (c : Dev nD) (g : Fin 32) (n : Fin 11008) :
    (V m c main_v1 : S32x11008.Idx → Elt Ideal .f32) (ix2 g n)
      = argSZ m c (ix3 g n (0 : Fin 2)) := by
  rw [scales_eq]
  refine (shapeCast_apply _ shapeCasts_S32x11008x1_S32x11008 (ix2 g n) (ix3 g n (0 : Fin 1)) ?_).trans ?_
  · rw [Shape.rowMajor_val_three, Shape.rowMajor_val_two]
    show (g.val * 11008 + n.val) * 1 + 0 = g.val * 11008 + n.val
    omega
  · exact extractStridedSlice_apply ![0, 0, 0] _ slices_S32x11008x2_S32x11008x1_0_0_0 (ix3 g n (0 : Fin 1))
      (ix3 g n (0 : Fin 2)) (fun a => match a with
        | ⟨0, _⟩ => by show g.val = 0 + g.val; omega
        | ⟨1, _⟩ => by show n.val = 0 + n.val; omega
        | ⟨2, _⟩ => by show 0 = 0 + 0; rfl)

theorem offset_apply (c : Dev nD) (g : Fin 32) (n : Fin 11008) :
    (V m c main_v3 : S32x11008.Idx → Elt Ideal .f32) (ix2 g n)
      = argSZ m c (ix3 g n (1 : Fin 2)) := by
  rw [offsets_eq]
  refine (shapeCast_apply _ shapeCasts_S32x11008x1_S32x11008 (ix2 g n) (ix3 g n (0 : Fin 1)) ?_).trans ?_
  · rw [Shape.rowMajor_val_three, Shape.rowMajor_val_two]
    show (g.val * 11008 + n.val) * 1 + 0 = g.val * 11008 + n.val
    omega
  · exact extractStridedSlice_apply ![0, 0, 1] _ slices_S32x11008x2_S32x11008x1_0_0_1 (ix3 g n (0 : Fin 1))
      (ix3 g n (1 : Fin 2)) (fun a => match a with
        | ⟨0, _⟩ => by show g.val = 0 + g.val; omega
        | ⟨1, _⟩ => by show n.val = 0 + n.val; omega
        | ⟨2, _⟩ => by show 1 = 1 + 0; rfl)

/-- The row sum of row p over group i's 128 columns, with the zero it is accumulated from. -/
theorem rowsum_apply (c : Dev nD) (p : Fin 32) (i : ℕ) :
    (V m c main_v5 : S32x32.Idx → Elt Ideal .f32) (ix2 p (grp i))
      = (0 : EReal) + ∑ k : Fin 128, argX m c (ix2 p (col i k)) := by
  rw [rowsums_eq]
  have hR : S32x32x128.Reduces [(2 : Fin 3)] S32x32 := by decide
  simp only [Host.reduceAdd, Ideal.hostReduceAdd_def]
  rw [Ideal.hostReduceAdd_single reducesTo_S32x32x128_S32x32_d2 hR]
  refine congrArg₂ (· + ·) Ideal.ofBits_zero_f32 (Finset.sum_congr rfl fun k _ => ?_)
  have hl : hR.lift (ix2 p (grp i)) k = ix3 p (grp i) k := funext fun a => Fin.ext (by
    match a with | ⟨0, _⟩ => rfl | ⟨1, _⟩ => rfl | ⟨2, _⟩ => rfl)
  rw [hl]
  refine shapeCast_apply _ shapeCasts_S32x4096_S32x32x128 (ix3 p (grp i) k) (ix2 p (col i k)) ?_
  rw [Shape.rowMajor_val_two, Shape.rowMajor_val_three]
  show p.val * 4096 + (128 * (i % 32) + k.val) = (p.val * 32 + i % 32) * 128 + k.val
  omega

end Cert.KernelIdeal.HostPrefix

end
-- ==== Proof.RefEntry.lean ====
/-
  The reference at an entry.

  The reference dequantizes the whole weight — w[n, k] = (q[n, k] − 8)·scale[k/128, n] + offset[k/128, n], built through
  a [11008, 32, 128] view of q and of the transposed, broadcast scales and offsets, then flattened back and
  transposed — and multiplies: out[p, n] = Σ_{k<4096} x[p, k]·w[n, k].  The generated read lemmas give each operation at
  an index; composed, the index each argument is finally read at is, by arithmetic on the coordinates, the plain one:
  x at (p, k), q at (n, k), the pairs at (k/128, n, 0) and (k/128, n, 1).
-/
import proofs.«105134_j9062380994905_2_alg».proof.Proof.Gen.ReferenceIdeal.Read
import Idealize.ShloMosaic.Lib.ValueIdx

set_option maxRecDepth 16384

noncomputable section

open scoped BigOperators

namespace Cert.ReferenceIdeal.Entry

open Cert.ReferenceIdeal Cert.ReferenceIdeal.Gen Cert.ReferenceIdeal.Read Idealize.ShloMosaic Idealize.ShloMosaic.ValueIdx

/-- The group of column k. -/
abbrev kgrp (k : Fin 4096) : Fin 32 := ⟨k.val / 128, by have := k.isLt; omega⟩

/-- Entry (p, n) of the reference's result, over the arguments. -/
def refEntry (x : S32x4096.Idx → Elt Ideal .f32) (q : S11008x4096.Idx → Elt Ideal .i32) (sz : S32x11008x2.Idx → Elt Ideal .f32)
    (p : Fin 32) (n : Fin 11008) : EReal :=
  ∑ k : Fin 4096, x (ix2 p k)
    * (((((q (ix2 n k)).toInt : ℝ) : EReal) - Ideal.ofBits .f32 0x41000000#32) * sz (ix3 (kgrp k) n (0 : Fin 2))
        + sz (ix3 (kgrp k) n (1 : Fin 2)))

/-- The reference's last stage at index i is `refEntry` at i's coordinates. -/
theorem ref_apply (x : (⟨S32x4096, .f32⟩ : BufTy).Contents (Elt Ideal)) (q : (⟨S11008x4096, .i32⟩ : BufTy).Contents (Elt Ideal))
    (sz : (⟨S32x11008x2, .f32⟩ : BufTy).Contents (Elt Ideal)) (i : S32x11008.Idx) :
    val_main_v18 (F := Ideal) x q sz i = refEntry x q sz (i 0) (i 1) := by
  rw [val_main_v18_apply]
  unfold refEntry
  refine Finset.sum_congr rfl fun k _ => ?_
  have hk : k.val < 4096 := k.isLt
  have h1 : (i 1).val < 11008 := (i 1).isLt
  have e1 : lidx_main_v18 i k = ix2 (i 0) k := funext fun a => Fin.ext (by
    match a with | ⟨0, _⟩ => rfl | ⟨1, _⟩ => rfl)
  have e2 : idx_main_v4 (idx_main_v16 (idx_main_v17 (ridx_main_v18 i k))) = ix2 (i 1) k := funext fun a => Fin.ext (by
    match a with
    | ⟨0, _⟩ =>
      show ((((i 1).val * 4096 + k.val) / 4096 * 32 + ((i 1).val * 4096 + k.val) / 128 % 32) * 128
        + ((i 1).val * 4096 + k.val) % 128) / 4096 = (i 1).val
      omega
    | ⟨1, _⟩ =>
      show ((((i 1).val * 4096 + k.val) / 4096 * 32 + ((i 1).val * 4096 + k.val) / 128 % 32) * 128
        + ((i 1).val * 4096 + k.val) % 128) % 4096 = k.val
      omega)
  have e3 : idx_main_v0 (idx_main_v1 (idx_main_v8 (idx_main_v9 (idx_main_v10 (idx_main_v16 (idx_main_v17 (ridx_main_v18 i k)))))))
      = ix3 (kgrp k) (i 1) (0 : Fin 2) := funext fun a => Fin.ext (by
    match a with
    | ⟨0, _⟩ =>
      show ((((i 1).val * 4096 + k.val) / 128 % 32) * 11008 + ((i 1).val * 4096 + k.val) / 4096) / 11008 = k.val / 128
      omega
    | ⟨1, _⟩ =>
      show ((((i 1).val * 4096 + k.val) / 128 % 32) * 11008 + ((i 1).val * 4096 + k.val) / 4096) / 1 % 11008 = (i 1).val
      omega
    | ⟨2, _⟩ => rfl)
  have e4 : idx_main_v2 (idx_main_v3 (idx_main_v12 (idx_main_v13 (idx_main_v14 (idx_main_v16 (idx_main_v17 (ridx_main_v18 i k)))))))
      = ix3 (kgrp k) (i 1) (1 : Fin 2) := funext fun a => Fin.ext (by
    match a with
    | ⟨0, _⟩ =>
      show ((((i 1).val * 4096 + k.val) / 128 % 32) * 11008 + ((i 1).val * 4096 + k.val) / 4096) / 11008 = k.val / 128
      omega
    | ⟨1, _⟩ =>
      show ((((i 1).val * 4096 + k.val) / 128 % 32) * 11008 + ((i 1).val * 4096 + k.val) / 4096) / 1 % 11008 = (i 1).val
      omega
    | ⟨2, _⟩ => rfl)
  rw [val_main_v17_apply, val_main_v16_apply, val_main_v15_apply, val_main_v11_apply, val_main_v7_apply,
    val_main_v5_apply, val_main_v4_apply, val_main_v6_apply, val_main_cst_apply, val_main_v10_apply, val_main_v9_apply,
    val_main_v8_apply, val_main_v1_apply, val_main_v0_apply, val_main_v14_apply, val_main_v13_apply, val_main_v12_apply,
    val_main_v3_apply, val_main_v2_apply, e1, e2, e3, e4]
  rfl

end Cert.ReferenceIdeal.Entry

end
-- ==== Proof.Finite.lean ====
/-
  What is finite: under the precondition every entry of x and of the scale/offset pairs is a real number, and the
  literal 8.0 is the real 8.

  The precondition is "all |x| < +inf and all |pairs| < +inf", printed as two reductions by `and` of elementwise
  comparisons against the word of +inf.  An extended real whose absolute value max(v, −v) lies strictly below the top
  element is neither infinity, so it is (the coercion of) a real.
-/
import proofs.«105134_j9062380994905_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Finite

open Cert.Pre_finite_inputs Cert.Pre_finite_inputs.Gen Idealize.ShloMosaic Idealize.ShloMosaic.ValueIdx

/-- The word 0x7F800000 is +inf. -/
theorem ofBits_inf : Ideal.ofBits .f32 0x7F800000#32 = (⊤ : EReal) := by
  simp [Ideal.ofBits, Ideal.ieee]

/-- The word 0x41000000 is the real 8. -/
theorem ofBits_eight : Ideal.ofBits .f32 0x41000000#32 = ((8 : ℝ) : EReal) := by
  simp [Ideal.ofBits, Ideal.ieee, -EReal.coe_mul]; norm_num

/-- An extended real whose absolute value is below the top element is a real. -/
theorem real_of_abs_lt_top (v : EReal) (h : max v (-v) < ⊤) : ∃ r : ℝ, v = (r : EReal) := by
  induction v using EReal.rec with
  | bot => simp at h
  | coe r => exact ⟨r, rfl⟩
  | top => simp at h

/-- One entry of an array whose comparison "|·| < +inf" came out true is a real. -/
theorem real_of_lt_inf {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) :
    ∃ r : ℝ, x i = (r : EReal) := by
  have hinf : (broadcastInDim s ![] hb (constant (F := Ideal) S_ .f32 0x7F800000#32)) i = (⊤ : EReal) :=
    (broadcastInDim_apply _ hb _ i ix0 (fun a => a.elim0)).trans ofBits_inf
  have e' : Ideal.cmp .olt (max (x i) (-(x i))) ((broadcastInDim s ![] hb (constant (F := Ideal) S_ .f32 0x7F800000#32)) i) = 1#1 := e
  rw [hinf] at e'
  have hlt : max (x i) (-(x i)) < ⊤ := by
    by_contra hn
    simp [Ideal.cmp, hn] at e'
  exact real_of_abs_lt_top _ hlt

/-- Under the precondition every entry of x and every entry of the pairs is a real. -/
theorem reals_of_pre (x : FVec Ideal S32x4096 .f32) (q : IVec S11008x4096 32) (sz : FVec Ideal S32x11008x2 .f32)
    (h : Cert.Pre_finite_inputs.fn (F := Ideal) x q sz = fun _ => 1#1) :
    (∀ i, ∃ r : ℝ, x i = (r : EReal)) ∧ (∀ i, ∃ r : ℝ, sz i = (r : EReal)) := by
  have h0 := congrFun h ix0
  dsimp only [Cert.Pre_finite_inputs.fn] at h0
  obtain ⟨hx, hs⟩ := IntOp.andi_eq_one.1 h0
  haveI : Subsingleton S_.Idx := ⟨fun a b => funext fun d => d.elim0⟩
  exact ⟨fun i => real_of_lt_inf x _ i (Host.reduce_andi_all _ _ _ _ _ hx i),
    fun i => real_of_lt_inf sz _ i (Host.reduce_andi_all _ _ _ _ _ hs i)⟩

end Cert.Pre_finite_inputs.Finite

end
-- ==== Proof.Join.lean ====
/-
  The kernel's array is the reference's array.

  Entry (p, n) of the kernel's result is the accumulation over the 32 groups g of
      (Σ_{k<128} x[p, 128g+k]·(q[n, 128g+k] − 8))·scale[g, n]   and   (0 + Σ_{k<128} x[p, 128g+k])·offset[g, n];
  entry (p, n) of the reference's is Σ_{j<4096} x[p, j]·((q[n, j] − 8)·scale[j/128, n] + offset[j/128, n]).  They are the
  same number once every entry of x, of the scales and of the offsets is a real (the precondition), because then the
  group's scale and offset distribute over the group's sum; the integer q − 8 is always a real.  The regrouping itself
  is the grouped-sum module's `regroup`, applied to the row p of x, the row n of q − 8 and the columns n of the scales
  and offsets, each extended to all naturals by reading the column number mod 4096 and the group number mod 32.
-/
import proofs.«105134_j9062380994905_2_alg».proof.Proof.Tiles
import proofs.«105134_j9062380994905_2_alg».proof.Proof.HostPrefix
import proofs.«105134_j9062380994905_2_alg».proof.Proof.RefEntry
import proofs.«105134_j9062380994905_2_alg».proof.Proof.Finite
import proofs.«105134_j9062380994905_2_alg».proof.Proof.GroupedSum

set_option maxRecDepth 16384

noncomputable section

open scoped BigOperators

namespace Cert.Join

open Cert.KernelIdeal Cert.KernelIdeal.Gen Cert.KernelIdeal.GroupBody Cert.KernelIdeal.Tiles Cert.KernelIdeal.HostPrefix
open Cert.ReferenceIdeal.Entry Cert.GroupedSum
open Idealize.ShloMosaic Idealize.ShloMosaic.TcCoe Idealize.ShloMosaic.ValueIdx Idealize.SL.Sem

/-- Column j mod 4096 among the 4096 columns. -/
abbrev colN (j : ℕ) : Fin 4096 := ⟨j % 4096, Nat.mod_lt _ (by decide)⟩

theorem colN_group (g : ℕ) (k : Fin 128) : colN (128 * g + k.val) = col g k :=
  Fin.ext (by show (128 * g + k.val) % 4096 = 128 * (g % 32) + k.val; have := k.isLt; omega)
theorem colN_val (k : Fin 4096) : colN k.val = k := Fin.ext (Nat.mod_eq_of_lt k.isLt)
theorem grp_div (k : Fin 4096) : grp (k.val / 128) = kgrp k :=
  Fin.ext (by show k.val / 128 % 32 = k.val / 128; have := k.isLt; omega)

/-- For arrays with real entries, and scales, offsets and row sums that are what the host operations make of the
    arguments, the kernel's entry is the reference's. -/
theorem entry_eq (X : S32x4096.Idx → Elt Ideal .f32) (XS : S32x32.Idx → Elt Ideal .f32) (Q : S11008x4096.Idx → Elt Ideal .i32)
    (SC ZR : S32x11008.Idx → Elt Ideal .f32) (SZ : S32x11008x2.Idx → Elt Ideal .f32)
    (xr : S32x4096.Idx → ℝ) (hX : ∀ i, X i = (xr i : EReal)) (sr : S32x11008x2.Idx → ℝ) (hSZ : ∀ i, SZ i = (sr i : EReal))
    (r8 : ℝ) (h8 : Ideal.ofBits .f32 0x41000000#32 = (r8 : EReal))
    (hXS : ∀ (p : Fin 32) (g : ℕ), XS (ix2 p (grp g)) = (0 : EReal) + ∑ k : Fin 128, X (ix2 p (col g k)))
    (hSC : ∀ (g : Fin 32) (n : Fin 11008), SC (ix2 g n) = SZ (ix3 g n (0 : Fin 2)))
    (hZR : ∀ (g : Fin 32) (n : Fin 11008), ZR (ix2 g n) = SZ (ix3 g n (1 : Fin 2)))
    (p : Fin 32) (n : Fin 11008) :
    kernelEntry X XS Q SC ZR p n = refEntry X Q SZ p n := by
  obtain ⟨xN, hxN⟩ : ∃ f : ℕ → ℝ, ∀ j, f j = xr (ix2 p (colN j)) := ⟨_, fun _ => rfl⟩
  obtain ⟨wN, hwN⟩ : ∃ f : ℕ → ℝ, ∀ j, f j = ((Q (ix2 n (colN j))).toInt : ℝ) - r8 := ⟨_, fun _ => rfl⟩
  obtain ⟨sN, hsN⟩ : ∃ f : ℕ → ℝ, ∀ g, f g = sr (ix3 (grp g) n (0 : Fin 2)) := ⟨_, fun _ => rfl⟩
  obtain ⟨zN, hzN⟩ : ∃ f : ℕ → ℝ, ∀ g, f g = sr (ix3 (grp g) n (1 : Fin 2)) := ⟨_, fun _ => rfl⟩
  calc kernelEntry X XS Q SC ZR p n
      = accumulate (fun i => (∑ k : Fin 128, (xN (128 * i + k) : EReal) * (wN (128 * i + k) : EReal)) * (sN i : EReal))
          (fun i => ((0 : EReal) + ∑ k : Fin 128, (xN (128 * i + k) : EReal)) * (zN i : EReal)) 32 := by
        unfold kernelEntry
        refine accumulate_congr (fun g => ?_) (fun g => ?_) 32
        · rw [hSC, hSZ, hsN]
          congr 1
          refine Finset.sum_congr rfl fun k _ => ?_
          rw [hxN, hwN, colN_group g k, hX, h8, EReal.coe_sub]
        · rw [hXS, hZR, hSZ, hzN]
          congr 2
          refine Finset.sum_congr rfl fun k _ => ?_
          rw [hxN, colN_group g k, hX]
    _ = ∑ j ∈ Finset.range 4096, (xN j : EReal) * ((wN j : EReal) * (sN (j / 128) : EReal) + (zN (j / 128) : EReal)) :=
        (regroup xN wN sN zN).symm
    _ = refEntry X Q SZ p n := by
        unfold refEntry
        rw [Finset.sum_range]
        refine Finset.sum_congr rfl fun k _ => ?_
        rw [hxN, hwN, hsN, hzN, colN_val k, grp_div k, hX, hSZ, hSZ, h8, EReal.coe_sub]

variable (m : (ℓ : Loc nD τ sig) → Buf (Elt Ideal) ℓ)

/-- Under the precondition, the array the kernel leaves is the reference's result of the same arguments, entry by
    entry. -/
theorem kernelArr_eq_ref (c : Dev nD)
    (hpre : Cert.Pre_finite_inputs.fn (F := Ideal) (m ((c : Thread nD τ).loc main_arg0)) (m ((c : Thread nD τ).loc main_arg1))
      (m ((c : Thread nD τ).loc main_arg2)) = fun _ => 1#1) (i : S32x11008.Idx) :
    kernelArr m c i = refEntry (argX m c) (argQ m c) (argSZ m c) (i 0) (i 1) := by
  obtain ⟨hx, hs⟩ := Cert.Pre_finite_inputs.Finite.reals_of_pre _ _ _ hpre
  choose xr hxr using hx
  choose sr hsr using hs
  unfold kernelArr
  rw [V_main_arg0, V_main_arg1]
  exact entry_eq (argX m c) (V m c main_v5) (argQ m c) (V m c main_v1) (V m c main_v3) (argSZ m c) xr hxr sr hsr 8
    Cert.Pre_finite_inputs.Finite.ofBits_eight (fun p g => rowsum_apply m c p g) (scale_apply m c) (offset_apply m c) (i 0) (i 1)

end Cert.Join

end
-- ==== Proof.lean ====
/-
  A group-quantized matrix product against its dequantize-then-multiply reference, equal over the extended reals.

  Both programs take x : f32[32, 4096], q : i32[11008, 4096] and pairs : f32[32, 11008, 2] (a scale and an offset for
  each of the 32 groups of 128 columns and each of the 11008 rows of q).  The reference builds the whole weight
  w[n, k] = (q[n, k] − 8)·scale[k/128, n] + offset[k/128, n] and returns x·wᵀ.  The kernel never builds w: for each
  tile of 128 rows n and each group g it multiplies the group's slice of x by the slice of q − 8, scales the product
  by scale[g, n], and adds offset[g, n] times the row sum of x over the group, which the host computed beforehand.
  At the ideal instance a change of float format is the identity and every operation is exact, so the two agree as
  soon as the scale and the offset may be taken out of a group's sum — distributivity, which holds for real numbers
  and fails at the infinities.  The precondition (every float input finite) gives exactly that: the algebraic claim
  USES it.  The ideal pass rewrote nothing in the kernel, so the preservation claim is empty.

  The three frames are the generated ones (the reference's is its generated run with the result dropped).  The
  kernel's result array as one function of the arguments is assembled from the generated frame run; the reference's
  from its generated run and read lemmas; the two functions are equal entry by entry (the joining module).
-/
import proofs.«105134_j9062380994905_2_alg».proof.Defs
import proofs.«105134_j9062380994905_2_alg».proof.Proof.Gen.Kernel
import proofs.«105134_j9062380994905_2_alg».proof.Proof.Gen.Kernel.Skeleton
import proofs.«105134_j9062380994905_2_alg».proof.Proof.Gen.Kernel.Launch
import proofs.«105134_j9062380994905_2_alg».proof.Proof.Gen.Kernel.Points
import proofs.«105134_j9062380994905_2_alg».proof.Proof.Gen.Kernel.Frame
import proofs.«105134_j9062380994905_2_alg».proof.Proof.Gen.KernelIdeal
import proofs.«105134_j9062380994905_2_alg».proof.Proof.Gen.KernelIdeal.Skeleton
import proofs.«105134_j9062380994905_2_alg».proof.Proof.Gen.KernelIdeal.Launch
import proofs.«105134_j9062380994905_2_alg».proof.Proof.Gen.KernelIdeal.Points
import proofs.«105134_j9062380994905_2_alg».proof.Proof.Gen.KernelIdeal.Frame
import proofs.«105134_j9062380994905_2_alg».proof.Proof.Gen.ReferenceIdeal
import proofs.«105134_j9062380994905_2_alg».proof.Proof.Gen.Pre_finite_inputs
import proofs.«105134_j9062380994905_2_alg».proof.Proof.Gen.KernelIdeal.Value
import proofs.«105134_j9062380994905_2_alg».proof.Proof.Gen.ReferenceIdeal.Run
import proofs.«105134_j9062380994905_2_alg».proof.Proof.Gen.ReferenceIdeal.Read
import proofs.«105134_j9062380994905_2_alg».proof.Proof.Join
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on the arguments, of which the precondition holds, the kernel ends with its result array
    at `kernelArr` and the reference with its result at its composed term of the same arguments — which, read entry
    by entry, is `kernelArr`. -/
theorem algebraic : Cert.algebraic_KernelIdeal_ReferenceIdeal := by
  intro m ρ m' ρ' hpre hagree
  refine ⟨fun c => Cert.KernelIdeal.Tiles.kernelArr m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  show Cert.ReferenceIdeal.Read.val_main_v18 (F := Ideal) _ _ _ = _
  funext i
  rw [Cert.ReferenceIdeal.Entry.ref_apply]
  exact (Cert.Join.kernelArr_eq_ref m c (hpre c) i).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
